-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S_ : Shape := ⟨0, ![]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S1x10000x10000 : S_.BroadcastsInDim S1x10000x10000 (![] : Fin 0 → Fin S1x10000x10000.rank)
  reducesTo_S1x10000x10000_S_d0_1_2 : S1x10000x10000.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S_S_d : S_.ReducesTo [] S_

variable [Facts]

def fn_part1 {F : FTy → Type} [FloatOps F] (main_arg4 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S1x10000x128 .f32) (main_arg1 : FVec F S1x10000x10000 .f32) (main_arg2 : FVec F S128x128 .f32) (main_arg3 : FVec F S128 .f32) (main_arg4 : FVec F S_ .f32) : IVec S_ 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_c : IVec S_ 1 := constantI S_ 1 1#1
  let main_v3 : IVec S_ 1 := (fun x v => Host.reduce IntOp.andi x v reducesTo_S1x10000x128_S_d0_1_2 h_S_) main_v2 main_c
  let main_v4 : FVec F S1x10000x10000 .f32 := Host.absf main_arg1
  let main_cst_0 : FVec F S_ .f32 := constant S_ .f32 0x7F800000#32
  let main_v5 : FVec F S1x10000x10000 .f32 := broadcastInDim S1x10000x10000 ![] bcast_S_S1x10000x10000 main_cst_0
  let main_v6 : IVec S1x10000x10000 1 := cmpf .olt main_v4 main_v5
  let main_c_1 : IVec S_ 1 := constantI S_ 1 1#1
  let main_v7 : IVec S_ 1 := (fun x v => Host.reduce IntOp.andi x v reducesTo_S1x10000x10000_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S_ : Shape := ⟨0, ![]⟩
abbrev S10000x128 : Shape := ⟨2, ![10000, 128]⟩
abbrev S10000x10000 : Shape := ⟨2, ![10000, 10000]⟩
abbrev S1x128 : Shape := ⟨2, ![1, 128]⟩
abbrev S1x1 : Shape := ⟨2, ![1, 1]⟩
abbrev S400x10000 : Shape := ⟨2, ![400, 10000]⟩
abbrev S400x128 : Shape := ⟨2, ![400, 128]⟩

abbrev nBuf : Space → Nat
  | .hbm => 11
  | .vmem => 9
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S10000x128, .f32⟩
  | .hbm, ⟨6, _⟩ => ⟨S10000x10000, .f32⟩
  | .hbm, ⟨7, _⟩ => ⟨S1x128, .f32⟩
  | .hbm, ⟨8, _⟩ => ⟨S1x1, .f32⟩
  | .hbm, ⟨9, _⟩ => ⟨S10000x128, .f32⟩
  | .hbm, ⟨10, _⟩ => ⟨S1x10000x128, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S1x1, .f32⟩
  | .local _ .vmem, ⟨6, _⟩ => ⟨S400x128, .f32⟩
  | .local _ .vmem, ⟨7, _⟩ => ⟨S400x128, .f32⟩
  | .local _ .vmem, ⟨8, _⟩ => ⟨S10000x128, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![26], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x10000x128_S10000x128 : S1x10000x128.ShapeCasts S10000x128
  shapeCasts_S1x10000x10000_S10000x10000 : S1x10000x10000.ShapeCasts S10000x10000
  shapeCasts_S128_S1x128 : S128.ShapeCasts S1x128
  shapeCasts_S_S1x1 : S_.ShapeCasts S1x1
  shapeCasts_S10000x128_S1x10000x128 : S10000x128.ShapeCasts S1x10000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_call0_v0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v4) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S_ : Shape := ⟨0, ![]⟩
abbrev S10000x10000 : Shape := ⟨2, ![10000, 10000]⟩
abbrev S10000x128 : Shape := ⟨2, ![10000, 128]⟩
abbrev S1x1x128 : Shape := ⟨3, ![1, 1, 128]⟩

abbrev nBuf : Space → Nat
  | .hbm => 22
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S1x10000x128, .f32⟩
  | .hbm, ⟨6, _⟩ => ⟨S10000x10000, .f32⟩
  | .hbm, ⟨7, _⟩ => ⟨S10000x128, .f32⟩
  | .hbm, ⟨8, _⟩ => ⟨S10000x128, .f32⟩
  | .hbm, ⟨9, _⟩ => ⟨S1x10000x128, .f32⟩
  | .hbm, ⟨10, _⟩ => ⟨S1x1x128, .f32⟩
  | .hbm, ⟨11, _⟩ => ⟨S1x10000x128, .f32⟩
  | .hbm, ⟨12, _⟩ => ⟨S1x10000x128, .f32⟩
  | .hbm, ⟨13, _⟩ => ⟨S_, .f32⟩
  | .hbm, ⟨14, _⟩ => ⟨S1x10000x128, .f32⟩
  | .hbm, ⟨15, _⟩ => ⟨S1x10000x128, .f32⟩
  | .hbm, ⟨16, _⟩ => ⟨S_, .f32⟩
  | .hbm, ⟨17, _⟩ => ⟨S1x10000x128, .f32⟩
  | .hbm, ⟨18, _⟩ => ⟨S1x10000x128, .f32⟩
  | .hbm, ⟨19, _⟩ => ⟨S1x10000x128, .f32⟩
  | .hbm, ⟨20, _⟩ => ⟨S1x10000x128, .f32⟩
  | .hbm, ⟨21, _⟩ => ⟨S1x10000x128, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  shapeCasts_S1x10000x10000_S10000x10000 : S1x10000x10000.ShapeCasts S10000x10000
  shapeCasts_S1x10000x128_S10000x128 : S1x10000x128.ShapeCasts S10000x128
  bcast_S10000x128_S1x10000x128_1_2 : S10000x128.BroadcastsInDim S1x10000x128 (![1, 2] : Fin 2 → Fin S1x10000x128.rank)
  bcast_S128_S1x1x128_2 : S128.BroadcastsInDim S1x1x128 (![2] : Fin 1 → Fin S1x1x128.rank)
  bcast_S1x1x128_S1x10000x128_0_1_2 : S1x1x128.BroadcastsInDim S1x10000x128 (![0, 1, 2] : Fin 3 → Fin S1x10000x128.rank)
  bcast_S_S1x10000x128 : S_.BroadcastsInDim S1x10000x128 (![] : Fin 0 → Fin S1x10000x128.rank)
  dot_S1x10000x128_S128x128_S1x10000x128_2_1_01_0_n_n_wf : DotDims.WF S1x10000x128 S128x128 S1x10000x128 [2] [1] [0, 1] [0] [] []
  dot_S10000x10000_S10000x128_S10000x128_1_0_0_1_n_n_wf : DotDims.WF S10000x10000 S10000x128 S10000x128 [1] [0] [0] [1] [] []

variable [Facts₀]

def dot_S1x10000x128_S128x128_S1x10000x128_2_1_01_0_n_n : DotDims S1x10000x128 S128x128 S1x10000x128 where
  lhsContracting := [2]
  rhsContracting := [1]
  lhsNonContracting := [0, 1]
  rhsNonContracting := [0]
  lhsBatch := []
  rhsBatch := []
  wf := dot_S1x10000x128_S128x128_S1x10000x128_2_1_01_0_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.GcnBlocks.lean ====
/-
  Where each window's block sits in its array.

  Five arrays feed the kernel: the node features (10000 × 128), the adjacency matrix (10000 × 10000), the weights
  (128 × 128), the bias as a 1 × 128 row and the slope as a 1 × 1 matrix. Four of them are staged WHOLE: their block is
  the array at every grid point. The adjacency matrix is staged 400 rows at a time: at point t ≥ 1 the block is rows
  400·(t − 1) … 400·(t − 1) + 399, all 10000 columns (the point t = 0 looks at tile 0 too, and computes nothing from it).
  The output moves with it: point t ≥ 1 owns output rows 400·(t − 1) … 400·(t − 1) + 399, and those 25 tiles are written
  back — point 0's is not — and together cover the 10000 rows.
-/
import proofs.«163046_g12309376271097_cont_fleet_1246_12_alg».proof.Proof.Gen.KernelIdeal.Frame
import Idealize.ShloMosaic.Lib.Pipeline.Value

noncomputable section

namespace Cert.Gcn

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The printed index maps over the 26 grid points: the four whole windows stay at block (0, 0); the adjacency tile and
    the output tile are at block row t − 1 (0 at the first point), block column 0. -/
theorem index_facts : ∀ t : Fin cfg0.N,
    win0_0.index t (0 : Fin 2) = 0 ∧ win0_0.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_1.index t (0 : Fin 2) = t.val - 1 ∧ win0_1.index t (1 : Fin 2) = 0
    ∧ win0_5.index t (0 : Fin 2) = t.val - 1 ∧ win0_5.index t (1 : Fin 2) = 0 :=
  (by decide +kernel : ∀ t : Fin grid0.N, _)

/-- The output tile is written back exactly at the points after the first. -/
theorem flush_iff : ∀ t : Fin cfg0.N, (cfg0.win 5).flush t = true ↔ 1 ≤ t.val :=
  (by decide +kernel : ∀ t : Fin grid0.N, win0_5.flush t = true ↔ 1 ≤ t.val)

/-- The node features' block is the whole array, at every point. -/
theorem nodes_blk (c : Dev nD) (t : Fin cfg0.N) : (iblk m c 0 t : Vec F S10000x128 .f32) = V m c main_call0_v0 := by
  obtain ⟨e0, e1, -⟩ := index_facts t
  funext j
  show V m c main_call0_v0 (((cfg0.win 0).blk t).view.emb j) = V m c main_call0_v0 j
  refine congrArg (V m c main_call0_v0) (funext fun a => Fin.ext ?_)
  match a with
  | ⟨0, _⟩ => show win0_0.index t (0 : Fin 2) * 10000 + 1 * (j 0).val = (j 0).val; rw [e0]; omega
  | ⟨1, _⟩ => show win0_0.index t (1 : Fin 2) * 128 + 1 * (j 1).val = (j 1).val; rw [e1]; omega

/-- The weights' block is the whole array, at every point. -/
theorem weights_blk (c : Dev nD) (t : Fin cfg0.N) : (iblk m c 2 t : Vec F S128x128 .f32) = V m c main_arg2 := by
  obtain ⟨-, -, e0, e1, -⟩ := index_facts t
  funext j
  show V m c main_arg2 (((cfg0.win 2).blk t).view.emb j) = V m c main_arg2 j
  refine congrArg (V m c main_arg2) (funext fun a => Fin.ext ?_)
  match a with
  | ⟨0, _⟩ => show win0_2.index t (0 : Fin 2) * 128 + 1 * (j 0).val = (j 0).val; rw [e0]; omega
  | ⟨1, _⟩ => show win0_2.index t (1 : Fin 2) * 128 + 1 * (j 1).val = (j 1).val; rw [e1]; omega

/-- The bias row's block is the whole row, at every point. -/
theorem bias_blk (c : Dev nD) (t : Fin cfg0.N) : (iblk m c 3 t : Vec F S1x128 .f32) = V m c main_call0_v2 := by
  obtain ⟨-, -, -, -, e0, e1, -⟩ := index_facts t
  funext j
  show V m c main_call0_v2 (((cfg0.win 3).blk t).view.emb j) = V m c main_call0_v2 j
  refine congrArg (V m c main_call0_v2) (funext fun a => Fin.ext ?_)
  match a with
  | ⟨0, _⟩ => show win0_3.index t (0 : Fin 2) * 1 + 1 * (j 0).val = (j 0).val; rw [e0]; omega
  | ⟨1, _⟩ => show win0_3.index t (1 : Fin 2) * 128 + 1 * (j 1).val = (j 1).val; rw [e1]; omega

/-- The slope's block is its one entry, at every point. -/
theorem slope_blk (c : Dev nD) (t : Fin cfg0.N) : (iblk m c 4 t : Vec F S1x1 .f32) = V m c main_call0_v3 := by
  obtain ⟨-, -, -, -, -, -, e0, e1, -⟩ := index_facts t
  funext j
  show V m c main_call0_v3 (((cfg0.win 4).blk t).view.emb j) = V m c main_call0_v3 j
  refine congrArg (V m c main_call0_v3) (funext fun a => Fin.ext ?_)
  match a with
  | ⟨0, _⟩ => show win0_4.index t (0 : Fin 2) * 1 + 1 * (j 0).val = (j 0).val; rw [e0]; omega
  | ⟨1, _⟩ => show win0_4.index t (1 : Fin 2) * 1 + 1 * (j 1).val = (j 1).val; rw [e1]; omega

end Cert.Gcn

end
-- ==== Proof.GcnPieces.lean ====
/-
  What the kernel leaves behind, point by point.

  The grid has 26 points. The first computes the feature transform and keeps it in a scratch buffer that lives across
  the whole grid; it stores nothing into the output. Each later point t reads that scratch and the t-th tile of adjacency
  rows and stores one tile of 400 output rows; it does not touch the scratch. So the scratch holds, after EVERY point, what
  the first point stored (an induction on the point: the first point stores it, a later point hands on what it found),
  and the output tile a later point leaves is the body's second stored value on that point's blocks and that scratch.

  Each control case stores through one rectangle covering its whole buffer, loaded from whole buffers: what is read back
  is the stored value of the buffers' contents.
-/
import proofs.«163046_g12309376271097_cont_fleet_1246_12_alg».proof.Proof.GcnBlocks
import Idealize.ShloMosaic.Lib.Pipeline.Value
import Idealize.ShloMosaic.Lib.Tactic

noncomputable section

namespace Cert.Gcn

open Idealize.ShloMosaic Idealize.ShloMosaic.TcCoe Idealize.ShloMosaic.Tactic Idealize.SL.Sem
open Cert.KernelIdeal Cert.KernelIdeal.Gen

variable {F : FTy → Type} [FloatOps F]

/-- The zero offsets of a rank-2 rectangle, as the constant function. -/
theorem offsets_zero : (![0, 0] : Fin 2 → Nat) = fun _ => 0 := funext fun a => by fin_cases a <;> rfl

/-- THE FIRST POINT's store: the scratch ends at the feature transform of the node-feature and weight buffers. -/
theorem scratch_first (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S400x128 .f32) (harg6 : arg6.IsWhole) (arg7 : Memref sig .tc .vmem S10000x128 .f32) (harg7 : arg7.IsWhole) (hc0 : cond0_0 i) (hc1 : ¬cond0_1 i) (x0 : Vec F S10000x128 .f32) (x1 : Vec F S400x10000 .f32) (x2 : Vec F S128x128 .f32) (x3 : Vec F S1x128 .f32) (x4 : Vec F S1x1 .f32) :
    sout0_A_0 c i arg1 harg1 arg2 harg2 arg3 harg3 arg4 harg4 arg5 harg5 arg6 harg6 arg7 harg7 hc0 hc1 x0 x1 x2 x3 x4 = k0_pay1 x0 x2 := by
  unfold sout0_A_0
  rw [View.read_writes_eq_canon _ _ _ (scover0_A_0 c i arg1 harg1 arg2 harg2 arg3 harg3 arg4 harg4 arg5 harg5 arg6 harg6 arg7 harg7 hc0 hc1 x0 x1 x2 x3 x4)]
  unfold kernelRun0_A
  dsimp only
  rw [View.canon_unit_zero offsets_zero]
  simp only [View.readAt_eq_ld, harg1.read_unread, harg3.read_unread, View.ld_unit_zero (S := S10000x128) offsets_zero,
    View.ld_unit_zero (S := S128x128) offsets_zero]

/-- A LATER POINT's store: the output's staging buffer ends at the tile computed from the adjacency tile, the scratch
    as the point found it (`xs0`), the bias row and the slope. -/
theorem tile_later (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S400x128 .f32) (harg6 : arg6.IsWhole) (arg7 : Memref sig .tc .vmem S10000x128 .f32) (harg7 : arg7.IsWhole) (hc0 : ¬cond0_0 i) (hc1 : cond0_1 i) (x0 : Vec F S10000x128 .f32) (x1 : Vec F S400x10000 .f32) (x2 : Vec F S128x128 .f32) (x3 : Vec F S1x128 .f32) (x4 : Vec F S1x1 .f32) (xs0 : Vec F S10000x128 .f32) :
    out0_B_5 c i arg1 harg1 arg2 harg2 arg3 harg3 arg4 harg4 arg5 harg5 arg6 harg6 arg7 harg7 hc0 hc1 x0 x1 x2 x3 x4 xs0 = k0_pay2 x1 xs0 x3 x4 := by
  unfold out0_B_5
  rw [View.read_writes_eq_canon _ _ _ (cover0_B_5 c i arg1 harg1 arg2 harg2 arg3 harg3 arg4 harg4 arg5 harg5 arg6 harg6 arg7 harg7 hc0 hc1 x0 x1 x2 x3 x4 xs0)]
  unfold kernelRun0_B
  dsimp only
  rw [View.canon_unit_zero offsets_zero]
  simp only [View.readAt_eq_ld, harg2.read_unread, harg4.read_unread, harg5.read_unread, harg7.read_unread,
    View.ld_unit_zero (S := S400x10000) offsets_zero, View.ld_unit_zero (S := S10000x128) offsets_zero,
    View.ld_unit_zero (S := S1x128) offsets_zero, View.ld_unit_zero (S := S1x1) offsets_zero]

variable (m : (ℓ : Loc nD τ sig) → Buf (Elt F) ℓ)

/-- The feature transform as the first point stores it: of the whole node-feature array and the whole weight array, as
    the region finds them. -/
def carried (c : Dev nD) : Vec F S10000x128 .f32 := k0_pay1 (V m c main_call0_v0) (V m c main_arg2)

/-- The scratch holds that feature transform after EVERY point: the first point stores it (its blocks of the node
    features and the weights are the whole arrays), and a later point hands on what the point before left. -/
theorem scratch_eq (c : Dev nD) : ∀ (n : ℕ) (t : Fin cfg0.N), t.val = n → (outsAt0 m c t.val t.isLt).2 = carried m c := by
  intro n
  induction n with
  | zero =>
    intro t ht
    have h0 : t.val % 26 = 0 := by rw [ht]
    have hnot : ¬1 ≤ t.val := by omega
    rw [outsAt0_A m c t h0 hnot]
    dsimp only
    refine (scratch_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h' => hnot ((hcond0_1 t).mp h')) (iblk m c 0 t) (iblk m c 1 t) (iblk m c 2 t) (iblk m c 3 t) (iblk m c 4 t)).trans ?_
    unfold carried
    rw [nodes_blk m c t, weights_blk m c t]
  | succ n ih =>
    intro t ht
    have hN : cfg0.N = 26 := N_0
    have hlt : t.val < 26 := lt_of_lt_of_eq t.isLt hN
    have h0 : ¬t.val % 26 = 0 := by omega
    have h1 : 1 ≤ t.val := by omega
    rw [outsAt0_B m c t h0 h1]
    dsimp only [sout0_B_0]
    exact ih ⟨t.val - 1, Nat.lt_of_le_of_lt (Nat.sub_le _ _) t.isLt⟩ (by show t.val - 1 = n; omega)

/-- The output tile a later point leaves: the body's second stored value on that point's adjacency tile, the carried
    feature transform, the bias row and the slope. -/
theorem tile_eq (c : Dev nD) (t : Fin cfg0.N) (h1 : 1 ≤ t.val) :
    (outsAt0 m c t.val t.isLt).1 = k0_pay2 (iblk m c 1 t) (carried m c) (V m c main_call0_v2) (V m c main_call0_v3) := by
  have hN : cfg0.N = 26 := N_0
  have hlt : t.val < 26 := lt_of_lt_of_eq t.isLt hN
  have h0 : ¬t.val % 26 = 0 := by omega
  rw [outsAt0_B m c t h0 h1]
  dsimp only
  refine (tile_later c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2).trans ?_
  rw [scratch_eq m c (t.val - 1) ⟨t.val - 1, Nat.lt_of_le_of_lt (Nat.sub_le _ _) t.isLt⟩ rfl, bias_blk m c t, slope_blk m c t]

end Cert.Gcn

end
-- ==== Proof.GcnSpec.lean ====
/-
  One graph-convolution layer, entry by entry, on the extended reals.

  With node features x (N rows of D numbers), a dense adjacency matrix adj (N × N), a weight matrix w (one row of D
  numbers per output feature), a bias b and a slope a, the layer is

      out(r, f) = prelu a ( Σ_k adj(r, k) · h(k, f) + b(f) ),      h(k, f) = Σ_d x(k, d) · w(f, d),

  where prelu a z = max(z, 0) + a · min(z, 0). The feature transform h = x · wᵀ is formed first and the adjacency
  product second; nothing is regrouped, so no distributive law (and no finiteness of the entries) is involved.

  An output entry depends on ONE row of the adjacency matrix only. So the layer on any number A of adjacency rows is one
  function (`rowsLayer`): a tile of 400 rows and the whole matrix of 10000 rows are its instances A = 400 and
  A = 10000, and a tile of the whole result is the result of the tile (`rowsLayer_rows`).
-/
import Idealize.ShloMosaic.PureOps.Ideal
import Idealize.ShloMosaic.Lib.ValueIdx

noncomputable section

namespace Cert.Gcn

open Idealize.ShloMosaic Idealize.ShloMosaic.ValueIdx

/-- The number the activation compares with: the f32 word of +0.0, read as an extended real. -/
abbrev zero : EReal := Ideal.ofBits .f32 0x00000000#32

/-- The activation with slope `a`: the positive part, plus `a` times the negative part. -/
def prelu (a z : EReal) : EReal := max z zero + a * min z zero

/-- The feature transform at node `n`, output feature `f`: row `n` of `x` against row `f` of `w`. -/
def featureAt (x : FVec Ideal ⟨2, ![10000, 128]⟩ .f32) (w : FVec Ideal ⟨2, ![128, 128]⟩ .f32)
    (n : Fin 10000) (f : Fin 128) : EReal :=
  ∑ d : Fin 128, x (ix2 n d) * w (ix2 f d)

/-- The feature transform x · wᵀ as a whole matrix. -/
def features (x : FVec Ideal ⟨2, ![10000, 128]⟩ .f32) (w : FVec Ideal ⟨2, ![128, 128]⟩ .f32) :
    FVec Ideal ⟨2, ![10000, 128]⟩ .f32 :=
  fun j => featureAt x w (j 0) (j 1)

/-- One output entry: row `p` of the adjacency rows against column `f` of the transformed features `h`, plus the bias at
    `f`, through the activation. The bias is a 1 × 128 row and the slope a 1 × 1 matrix, as the kernel holds them. -/
def entryAt {A : ℕ} (adj : FVec Ideal ⟨2, ![A, 10000]⟩ .f32) (h : FVec Ideal ⟨2, ![10000, 128]⟩ .f32)
    (b : FVec Ideal ⟨2, ![1, 128]⟩ .f32) (a : FVec Ideal ⟨2, ![1, 1]⟩ .f32) (p : Fin A) (f : Fin 128) : EReal :=
  prelu (a (ix2 (0 : Fin 1) (0 : Fin 1))) ((∑ k : Fin 10000, adj (ix2 p k) * h (ix2 k f)) + b (ix2 (0 : Fin 1) f))

/-- The layer on `A` adjacency rows, as an A × 128 matrix. -/
def rowsLayer {A : ℕ} (adj : FVec Ideal ⟨2, ![A, 10000]⟩ .f32) (h : FVec Ideal ⟨2, ![10000, 128]⟩ .f32)
    (b : FVec Ideal ⟨2, ![1, 128]⟩ .f32) (a : FVec Ideal ⟨2, ![1, 1]⟩ .f32) : FVec Ideal ⟨2, ![A, 128]⟩ .f32 :=
  fun j => entryAt adj h b a (j 0) (j 1)

theorem rowsLayer_apply {A : ℕ} (adj : FVec Ideal ⟨2, ![A, 10000]⟩ .f32) (h : FVec Ideal ⟨2, ![10000, 128]⟩ .f32)
    (b : FVec Ideal ⟨2, ![1, 128]⟩ .f32) (a : FVec Ideal ⟨2, ![1, 1]⟩ .f32) (p : Fin A) (f : Fin 128) :
    rowsLayer adj h b a (ix2 p f) = entryAt adj h b a p f := rfl

/-- ROW LOCALITY. If row `p` of the rows `adj'` is row `r` of the rows `adj`, then entry (p, f) of the layer on `adj'` is
    entry (r, f) of the layer on `adj`: the other rows do not enter. -/
theorem entryAt_rows {A A' : ℕ} (adj : FVec Ideal ⟨2, ![A, 10000]⟩ .f32) (adj' : FVec Ideal ⟨2, ![A', 10000]⟩ .f32)
    (h : FVec Ideal ⟨2, ![10000, 128]⟩ .f32) (b : FVec Ideal ⟨2, ![1, 128]⟩ .f32) (a : FVec Ideal ⟨2, ![1, 1]⟩ .f32)
    (p : Fin A') (r : Fin A) (f : Fin 128) (hrow : ∀ k : Fin 10000, adj' (ix2 p k) = adj (ix2 r k)) :
    entryAt adj' h b a p f = entryAt adj h b a r f := by
  unfold entryAt
  rw [Finset.sum_congr rfl fun k _ => by rw [hrow k]]

/-- The whole layer in the arguments' own shapes: node features 1 × N × D, adjacency 1 × N × N, weights, a bias vector and
    a scalar slope, the result 1 × N × 128. -/
def layer (x : FVec Ideal ⟨3, ![1, 10000, 128]⟩ .f32) (adj : FVec Ideal ⟨3, ![1, 10000, 10000]⟩ .f32)
    (w : FVec Ideal ⟨2, ![128, 128]⟩ .f32) (b : FVec Ideal ⟨1, ![128]⟩ .f32) (a : FVec Ideal ⟨0, ![]⟩ .f32) :
    FVec Ideal ⟨3, ![1, 10000, 128]⟩ .f32 :=
  fun i => prelu (a ix0)
    ((∑ k : Fin 10000, adj (ix3 (0 : Fin 1) (i 1) k) * ∑ d : Fin 128, x (ix3 (0 : Fin 1) k d) * w (ix2 (i 2) d))
      + b (ix1 (i 2)))

end Cert.Gcn

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.GcnTile.lean ====
/-
  What the kernel body computes, read as the layer's formulas (at the ideal values).

  The body stores two values. At the first grid point, the feature transform: the node features times the TRANSPOSED
  weight matrix, a plain matrix product into a zero accumulator — entry (n, f) is Σ_d x(n, d) · wᵀ(d, f) = Σ_d x(n, d) · w(f, d).
  At every later point, one tile of 400 output rows: the tile of adjacency rows times the transformed features (again a
  plain product into zero), plus the bias row repeated down the 400 rows, through max(z, 0) + a · min(z, 0) with the
  slope a read from its 1 × 1 matrix. Each is the specification's function on the body's loads.
-/
import proofs.«163046_g12309376271097_cont_fleet_1246_12_alg».proof.Proof.Gen.KernelIdeal.Skeleton
import proofs.«163046_g12309376271097_cont_fleet_1246_12_alg».proof.Proof.GcnSpec
import proofs.«163046_g12309376271097_cont_fleet_1246_12_alg».proof.Proof.LibMatmul2
import Idealize.ShloMosaic.Lib.Pipeline.Value
import Idealize.ShloMosaic.Lib.ValueLayout

noncomputable section

namespace Cert.Gcn

open Idealize.ShloMosaic Idealize.ShloMosaic.ValueIdx Cert.KernelIdeal Cert.KernelIdeal.Gen

/-- The stored feature transform is x · wᵀ: the product's right operand at (d, f) is the transpose's entry, w(f, d). -/
theorem pay1_eq (x : FVec Ideal S10000x128 .f32) (w : FVec Ideal S128x128 .f32) :
    k0_pay1 (F := Ideal) x w = features x w := by
  funext j
  obtain ⟨n, f, rfl⟩ : ∃ (n : Fin 10000) (f : Fin 128), j = ix2 n f := ⟨j 0, j 1, eq_ix2 j⟩
  unfold k0_pay1
  rw [shapeCast_self, shapeCast_self]
  refine (Cert.Lib.matmul2_zero_apply (A := 10000) (K := 128) (B := 128) _ x _ n f).trans ?_
  show _ = featureAt x w n f
  unfold featureAt
  exact Finset.sum_congr rfl fun d _ => by rw [transpose_ix2_apply]

/-- The bias row repeated down the tile reads, at (p, f), the row's entry f. -/
theorem biasRows_apply (b : FVec Ideal S1x128 .f32) (p : Fin 400) (f : Fin 128) :
    broadcastTo S400x128 b Facts₀.broadcasts_S1x128_S400x128 (ix2 p f) = b (ix2 (0 : Fin 1) f) :=
  broadcastTo_apply b _ _ _ fun a => match a with
    | ⟨0, _⟩ => rfl
    | ⟨1, _⟩ => rfl

/-- The slope, extracted from its 1 × 1 matrix at position (0, 0), is the matrix's one entry. -/
theorem slope_apply (a : FVec Ideal S1x1 .f32) :
    extractAt ![0, 0] a Facts₀.inpos_S1x1_p0_0 = a (ix2 (0 : Fin 1) (0 : Fin 1)) :=
  congrArg a (funext fun d => Fin.ext (by match d with | ⟨0, _⟩ => rfl | ⟨1, _⟩ => rfl))

/-- The stored output tile is the layer on the tile's 400 adjacency rows. -/
theorem pay2_eq (adj : FVec Ideal S400x10000 .f32) (h : FVec Ideal S10000x128 .f32) (b : FVec Ideal S1x128 .f32)
    (a : FVec Ideal S1x1 .f32) :
    k0_pay2 (F := Ideal) adj h b a = rowsLayer adj h b a := by
  funext j
  obtain ⟨p, f, rfl⟩ : ∃ (p : Fin 400) (f : Fin 128), j = ix2 p f := ⟨j 0, j 1, eq_ix2 j⟩
  rw [rowsLayer_apply]
  unfold k0_pay2 entryAt prelu
  rw [shapeCast_self, shapeCast_self]
  simp only [addf_apply, mulf_apply, maximumf_apply, minimumf_apply, broadcast_apply, biasRows_apply, slope_apply]
  have hprod : matmul dot_S400x10000_S10000x128_S400x128_1_0_0_1_n_n none adj h (constant S400x128 .f32 0x00000000#32) (ix2 p f)
      = ∑ k : Fin 10000, adj (ix2 p k) * h (ix2 k f) :=
    Cert.Lib.matmul2_zero_apply (A := 400) (K := 10000) (B := 128) _ adj h p f
  rw [hprod]
  rfl

end Cert.Gcn

end
-- ==== Proof.GcnArray.lean ====
/-
  From the tiles to the whole result array.

  Point t ≥ 1 writes back one tile of 400 rows, and that tile is rows 400·(t − 1) … of ONE matrix: the layer on the whole
  adjacency matrix. For an output entry uses one adjacency row only, so the layer on the tile's 400 rows, at tile row p, is
  the layer on all 10000 rows at row 400·(t − 1) + p — the tile of adjacency rows the point was handed IS those rows. The
  25 written-back tiles cover the 10000 rows (row r is in the tile of point r / 400 + 1), so the array ends holding that
  matrix, whatever it held before.
-/
import proofs.«163046_g12309376271097_cont_fleet_1246_12_alg».proof.Proof.GcnPieces
import proofs.«163046_g12309376271097_cont_fleet_1246_12_alg».proof.Proof.GcnTile

noncomputable section

namespace Cert.Gcn

open Idealize.ShloMosaic Idealize.ShloMosaic.TcCoe Idealize.ShloMosaic.ValueIdx Idealize.SL.Sem
open Idealize.ShloMosaic.Pipeline (Dat)
open Cert.KernelIdeal Cert.KernelIdeal.Gen

/-- Row locality with the column's coordinate spelt two ways. -/
theorem entryAt_congr {A A' : ℕ} (adj : FVec Ideal ⟨2, ![A, 10000]⟩ .f32) (adj' : FVec Ideal ⟨2, ![A', 10000]⟩ .f32)
    (h : FVec Ideal ⟨2, ![10000, 128]⟩ .f32) (b : FVec Ideal ⟨2, ![1, 128]⟩ .f32) (a : FVec Ideal ⟨2, ![1, 1]⟩ .f32)
    (p : Fin A') (r : Fin A) (f f' : Fin 128) (hf : f.val = f'.val)
    (hrow : ∀ k : Fin 10000, adj' (ix2 p k) = adj (ix2 r k)) :
    entryAt adj' h b a p f = entryAt adj h b a r f' := by
  obtain rfl : f = f' := Fin.ext hf
  exact entryAt_rows adj adj' h b a p r f hrow

variable (m : (ℓ : Loc nD τ sig) → Buf (Elt Ideal) ℓ)

/-- The transformed features, of the node features and weights as the region finds them. -/
def hidden (c : Dev nD) : FVec Ideal S10000x128 .f32 := features (V m c main_call0_v0) (V m c main_arg2)

/-- The 10000 × 128 result: the layer on the whole adjacency matrix as the region finds it. -/
def result2 (c : Dev nD) : FVec Ideal S10000x128 .f32 :=
  rowsLayer (A := 10000) (V m c main_call0_v1) (hidden m c) (V m c main_call0_v2) (V m c main_call0_v3)

/-- The carried scratch is the transformed features. -/
theorem carried_eq (c : Dev nD) : carried m c = hidden m c := by
  unfold carried hidden
  exact pay1_eq _ _

/-- WHAT A POINT WRITES BACK is its tile of the result. -/
theorem flushed_eq (c : Dev nD) (t : Fin cfg0.N) (hf : (cfg0.win 5).flush t = true) :
    (dats m 0 c).flushed 5 t = ((cfg0.win 5).blk t).view.read (Elt Ideal) (result2 m c) := by
  have h1 : 1 ≤ t.val := (flush_iff t).mp hf
  obtain ⟨-, -, -, -, -, -, -, -, e10, e11, e50, e51⟩ := index_facts t
  show (cfg0.win 5).cut (grid0.coords t) ((dats m 0 c).after 5 t) = _
  rw [after0_5, tile_eq m c t h1, carried_eq, pay2_eq]
  funext j
  show entryAt (iblk m c 1 t) (hidden m c) (V m c main_call0_v2) (V m c main_call0_v3) (j 0) (j 1)
    = entryAt (V m c main_call0_v1) (hidden m c) (V m c main_call0_v2) (V m c main_call0_v3)
        ((((cfg0.win 5).blk t).view.emb j) 0) ((((cfg0.win 5).blk t).view.emb j) 1)
  refine entryAt_congr (V m c main_call0_v1) (iblk m c 1 t) (hidden m c) (V m c main_call0_v2) (V m c main_call0_v3)
    (j 0) ((((cfg0.win 5).blk t).view.emb j) 0) (j 1) ((((cfg0.win 5).blk t).view.emb j) 1) ?_ ?_
  · show (j 1).val = win0_5.index t (1 : Fin 2) * 128 + 1 * (j 1).val
    rw [e51]; omega
  · intro k
    show V m c main_call0_v1 (((cfg0.win 1).blk t).view.emb (ix2 (j 0) k))
      = V m c main_call0_v1 (ix2 ((((cfg0.win 5).blk t).view.emb j) 0) k)
    refine congrArg (V m c main_call0_v1) (funext fun a => Fin.ext ?_)
    match a with
    | ⟨0, _⟩ =>
      show win0_1.index t (0 : Fin 2) * 400 + 1 * (j 0).val = win0_5.index t (0 : Fin 2) * 400 + 1 * (j 0).val
      rw [e10, e50]
    | ⟨1, _⟩ =>
      show win0_1.index t (1 : Fin 2) * 10000 + 1 * k.val = k.val
      rw [e11]; omega

/-- An index of the result array is in point `t`'s tile iff each coordinate is in the tile's range on its axis. -/
theorem mem_tile (t : Fin cfg0.N) (i : S10000x128.Idx) :
    i ∈ ((cfg0.win 5).blk t).view.set ↔ ∀ a : Fin 2, win0_5.index t a * S400x128.size a ≤ (i a).val
      ∧ (i a).val < win0_5.index t a * S400x128.size a + S400x128.size a := by
  show i ∈ ((View.whole main_call0_v4).slice (win0_5.rect t)).set ↔ _
  rw [View.set_slice_whole, Rect.mem_set_unit]
  exact Iff.rfl

/-- Every row of the result is in a tile that is written back: row r in the tile of point r / 400 + 1. -/
theorem covered (i : S10000x128.Idx) :
    ∃ t : Fin cfg0.N, (cfg0.win 5).flush t = true ∧ i ∈ ((cfg0.win 5).blk t).view.set := by
  have hN : cfg0.N = 26 := N_0
  have hi0 : (i 0).val < 10000 := (i 0).isLt
  have hi1 : (i 1).val < 128 := (i 1).isLt
  have hlt : (i 0).val / 400 + 1 < cfg0.N := by rw [hN]; omega
  obtain ⟨-, -, -, -, -, -, -, -, -, -, e50, e51⟩ := index_facts ⟨(i 0).val / 400 + 1, hlt⟩
  have e50' : win0_5.index ⟨(i 0).val / 400 + 1, hlt⟩ (0 : Fin 2) = (i 0).val / 400 := by rw [e50]; show (i 0).val / 400 + 1 - 1 = _; omega
  refine ⟨⟨(i 0).val / 400 + 1, hlt⟩, (flush_iff _).mpr (by show 1 ≤ (i 0).val / 400 + 1; omega), ?_⟩
  rw [mem_tile]
  intro a
  match a with
  | ⟨0, _⟩ =>
    show win0_5.index ⟨(i 0).val / 400 + 1, hlt⟩ (0 : Fin 2) * 400 ≤ (i 0).val
      ∧ (i 0).val < win0_5.index ⟨(i 0).val / 400 + 1, hlt⟩ (0 : Fin 2) * 400 + 400
    rw [e50']; omega
  | ⟨1, _⟩ =>
    show win0_5.index ⟨(i 0).val / 400 + 1, hlt⟩ (1 : Fin 2) * 128 ≤ (i 1).val
      ∧ (i 1).val < win0_5.index ⟨(i 0).val / 400 + 1, hlt⟩ (1 : Fin 2) * 128 + 128
    rw [e51]; omega

/-- THE RESULT ARRAY after the run is the layer on the whole adjacency matrix. -/
theorem final (c : Dev nD) : (dats m 0 c).arrAt 5 cfg0.N = result2 m c :=
  (dats m 0 c).arrAt_eq_of_cover 5 (result2 m c) (flushed_eq m c) covered

end Cert.Gcn

end
-- ==== Proof.GcnKernelRun.lean ====
/-
  The kernel's whole program, read: what its result buffer holds after the run.

  Around the grid the program only recasts. Before it, four recasts hand the grid the node features and the adjacency matrix
  without their leading unit axis, the bias as a row and the slope as a 1 × 1 matrix (the weights go in as they are); after
  it, one recast gives the 10000 × 128 result its leading unit axis back. So the result buffer ends at the recast of the layer
  on the recast arguments, and the five argument buffers end as they began.
-/
import proofs.«163046_g12309376271097_cont_fleet_1246_12_alg».proof.Proof.GcnArray
import Idealize.ShloMosaic.Lib.StableHlo.Run
import Idealize.ShloMosaic.Lib.Tactic

noncomputable section

namespace Cert.Gcn

open Idealize.ShloMosaic Idealize.ShloMosaic.TcCoe Idealize.ShloMosaic.Tactic Idealize.SL.Sem Idealize.ShloMosaic.StableHlo
open Cert.KernelIdeal Cert.KernelIdeal.Gen

variable (m : (ℓ : Loc nD τ sig) → Buf (Elt Ideal) ℓ) (ρ : Dev nD → PrngReg)

/-- The grid finds the node features with the leading unit axis dropped, -/
theorem nodes_in (c : Dev nD) : (V m c main_call0_v0 : FVec Ideal S10000x128 .f32)
    = shapeCast S10000x128 (m ((c : Thread nD τ).loc main_arg0)) Facts₀.shapeCasts_S1x10000x128_S10000x128 := by
  show StableHlo.after hostOps0 (fun b => m (c, b)) (Proc.devRef .tc main_call0_v0) = _
  after_results
  rfl

/-- the adjacency matrix likewise, -/
theorem adj_in (c : Dev nD) : (V m c main_call0_v1 : FVec Ideal S10000x10000 .f32)
    = shapeCast S10000x10000 (m ((c : Thread nD τ).loc main_arg1)) Facts₀.shapeCasts_S1x10000x10000_S10000x10000 := by
  show StableHlo.after hostOps0 (fun b => m (c, b)) (Proc.devRef .tc main_call0_v1) = _
  after_results
  rfl

/-- the bias as a 1 × 128 row, -/
theorem bias_in (c : Dev nD) : (V m c main_call0_v2 : FVec Ideal S1x128 .f32)
    = shapeCast S1x128 (m ((c : Thread nD τ).loc main_arg3)) Facts₀.shapeCasts_S128_S1x128 := by
  show StableHlo.after hostOps0 (fun b => m (c, b)) (Proc.devRef .tc main_call0_v2) = _
  after_results
  rfl

/-- and the slope as a 1 × 1 matrix. -/
theorem slope_in (c : Dev nD) : (V m c main_call0_v3 : FVec Ideal S1x1 .f32)
    = shapeCast S1x1 (m ((c : Thread nD τ).loc main_arg4)) Facts₀.shapeCasts_S_S1x1 := by
  show StableHlo.after hostOps0 (fun b => m (c, b)) (Proc.devRef .tc main_call0_v3) = _
  after_results
  rfl

/-- The result buffer, after the recast that follows the grid: the result matrix with its leading unit axis back. -/
theorem tail_eq (c : Dev nD) : Pipeline.afterTail₀ cfgs (dats m) 0 (V0 m) [hostOps1] c main_v0
    = shapeCast S1x10000x128 (result2 m c) Facts₀.shapeCasts_S10000x128_S1x10000x128 := by
  have e : Pipeline.withArrays (cfgs 0).spec c (V0 m c) (fun w => (dats m 0 c).arrAt w (cfgs 0).N)
      (Proc.devRef .tc main_call0_v4) = result2 m c :=
    (Pipeline.withArrays_arr spec0 launch0.win.arr_inj c _ _ 5).trans (final m c)
  unfold Pipeline.afterTail₀
  show StableHlo.after hostOps1 _ (Proc.devRef .tc main_v0) = _
  after_results
  rw [e]
  rfl

/-- The layer of the program's five arguments, as the kernel arranges it. -/
def kernelResult (c : Dev nD) : FVec Ideal S1x10000x128 .f32 :=
  shapeCast S1x10000x128
    (rowsLayer (A := 10000)
      (shapeCast S10000x10000 (m ((c : Thread nD τ).loc main_arg1)) Facts₀.shapeCasts_S1x10000x10000_S10000x10000)
      (features (shapeCast S10000x128 (m ((c : Thread nD τ).loc main_arg0)) Facts₀.shapeCasts_S1x10000x128_S10000x128)
        (m ((c : Thread nD τ).loc main_arg2)))
      (shapeCast S1x128 (m ((c : Thread nD τ).loc main_arg3)) Facts₀.shapeCasts_S128_S1x128)
      (shapeCast S1x1 (m ((c : Thread nD τ).loc main_arg4)) Facts₀.shapeCasts_S_S1x1))
    Facts₀.shapeCasts_S10000x128_S1x10000x128

/-- The result matrix is the layer on the recast arguments. -/
theorem result2_eq (c : Dev nD) :
    shapeCast S1x10000x128 (result2 m c) Facts₀.shapeCasts_S10000x128_S1x10000x128 = kernelResult m c := by
  unfold result2 hidden kernelResult
  rw [nodes_in m c, adj_in m c, bias_in m c, slope_in m c, V_main_arg2 m c]

/-- THE RUN, READ: every weakly fair execution terminates with the result buffer at the kernel's arrangement of the layer
    and the five arguments unchanged. -/
theorem run : θ_run defs (onTc (τ := τ) (main (F := Ideal))) ⟨m, fun _ => 0, ρ⟩ fun r => ∀ c : Dev nD,
      r.2.mem ((c.tc : Thread nD τ).loc main_v0) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(((h c).2 main_v0 (Pipeline.mem_restRefs_of main_v0 (by decide) (by decide))).trans (tail_eq m c)).trans (result2_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Gcn

end
-- ==== Proof.GcnReference.lean ====
/-
  The reference computes the layer.

  Read one operation at a time: the first contraction pairs feature d of node k with entry (f, d) of the weights, so its
  entry (0, k, f) is Σ_d x(0, k, d) · w(f, d); the two reshapes only drop the leading unit axis (row k, column f of the
  2-D matrix is entry (0, k, f)); the second contraction is Σ_k adj(r, k) · h(k, f); the bias vector is repeated along the
  rows, zero and the slope everywhere; and the last four operations are max(z, 0) + a · min(z, 0).
-/
import proofs.«163046_g12309376271097_cont_fleet_1246_12_alg».proof.Proof.Gen.ReferenceIdeal.Read
import proofs.«163046_g12309376271097_cont_fleet_1246_12_alg».proof.Proof.GcnSpec

noncomputable section

namespace Cert.Gcn

open Idealize.ShloMosaic Idealize.ShloMosaic.ValueIdx Cert.ReferenceIdeal Cert.ReferenceIdeal.Read

/-- The reference's result, as a function of its five arguments, is the layer. -/
theorem reference_eq (x0 : FVec Ideal S1x10000x128 .f32) (x1 : FVec Ideal S1x10000x10000 .f32)
    (x2 : FVec Ideal S128x128 .f32) (x3 : FVec Ideal S128 .f32) (x4 : FVec Ideal S_ .f32) :
    val_main_v14 (F := Ideal) x0 x1 x2 x3 x4 = layer x0 x1 x2 x3 x4 := by
  funext i
  have h1 : (i 1).val < 10000 := (i 1).isLt
  have h2 : (i 2).val < 128 := (i 2).isLt
  -- the adjacency entry the second contraction reads at (row of i, k)
  have eAdj : ∀ k : Fin 10000, idx_main_v1 (lidx_main_v3 (idx_main_v4 i) k) = ix3 (0 : Fin 1) (i 1) k := fun k =>
    funext fun a => Fin.ext (by
      have hk : k.val < 10000 := k.isLt
      match a with
      | ⟨0, _⟩ => rfl
      | ⟨1, _⟩ => show ((i 1).val * 10000 + k.val) / 10000 % 10000 = (i 1).val; omega
      | ⟨2, _⟩ => show ((i 1).val * 10000 + k.val) % 10000 = k.val; omega)
  -- the node-feature entry the first contraction reads for node k, feature d
  have eNode : ∀ (k : Fin 10000) (d : Fin 128),
      lidx_main_v0 (idx_main_v2 (ridx_main_v3 (idx_main_v4 i) k)) d = ix3 (0 : Fin 1) k d := fun k d =>
    funext fun a => Fin.ext (by
      have hk : k.val < 10000 := k.isLt
      match a with
      | ⟨0, _⟩ => rfl
      | ⟨1, _⟩ => show (k.val * 128 + (i 2).val) / 128 % 10000 = k.val; omega
      | ⟨2, _⟩ => rfl)
  -- the weight entry: output feature of i, input feature d
  have eWeight : ∀ (k : Fin 10000) (d : Fin 128),
      ridx_main_v0 (idx_main_v2 (ridx_main_v3 (idx_main_v4 i) k)) d = ix2 (i 2) d := fun k d =>
    funext fun a => Fin.ext (by
      have hk : k.val < 10000 := k.isLt
      match a with
      | ⟨0, _⟩ => show (k.val * 128 + (i 2).val) % 128 = (i 2).val; omega
      | ⟨1, _⟩ => rfl)
  -- the bias entry: output feature of i
  have eBias : idx_main_v5 (idx_main_v6 i) = ix1 (i 2) := funext fun a => Fin.ext (by
    match a with
    | ⟨0, _⟩ => rfl)
  rw [val_main_v14_apply, val_main_v9_apply, val_main_v13_apply, val_main_v11_apply, val_main_v12_apply,
    val_main_v8_apply, val_main_v10_apply, val_main_cst_apply, val_main_cst_0_apply, val_main_v7_apply,
    val_main_v4_apply, val_main_v6_apply, val_main_v5_apply, val_main_v3_apply]
  simp only [val_main_v1_apply, val_main_v2_apply, val_main_v0_apply, eAdj, eNode, eWeight, eBias]
  rfl

end Cert.Gcn

end
-- ==== Proof.GcnBridge.lean ====
/-
  The kernel's arrangement and the reference's are one function.

  The kernel works on matrices: it is handed the node features and the adjacency matrix with their leading unit axis
  dropped, the bias as a 1 × 128 row and the slope as a 1 × 1 matrix, and its 10000 × 128 result is given the leading unit
  axis back. Each of those recasts keeps every entry where it was — entry (r, k) of the matrix is entry (0, r, k) of the
  array, entry (0, f) of the row is entry f of the vector, the 1 × 1 matrix's entry is the scalar — so the layer on the
  recast arguments, recast, is the layer on the arguments, entry by entry. No arithmetic is rearranged.
-/
import proofs.«163046_g12309376271097_cont_fleet_1246_12_alg».proof.Proof.GcnSpec
import Idealize.ShloMosaic.Lib.Pipeline.Value
import Idealize.ShloMosaic.Lib.ValueLayout

noncomputable section

namespace Cert.Gcn

open Idealize.ShloMosaic Idealize.ShloMosaic.ValueIdx

/-- A vector of 128 numbers recast as a 1 × 128 row: the row's entry (0, f) is the vector's entry f. -/
theorem row_cast (b : FVec Ideal ⟨1, ![128]⟩ .f32) (h : (⟨1, ![128]⟩ : Shape).ShapeCasts ⟨2, ![1, 128]⟩) (f : Fin 128) :
    shapeCast ⟨2, ![1, 128]⟩ b h (ix2 (0 : Fin 1) f) = b (ix1 f) :=
  shapeCast_apply b h _ _ (by
    rw [Shape.rowMajor_val_one, Shape.rowMajor_val_two]
    show f.val = 0 * 128 + f.val
    omega)

/-- A scalar recast as a 1 × 1 matrix: the matrix's one entry is the scalar. -/
theorem scalar_cast (a : FVec Ideal ⟨0, ![]⟩ .f32) (h : (⟨0, ![]⟩ : Shape).ShapeCasts ⟨2, ![1, 1]⟩) :
    shapeCast ⟨2, ![1, 1]⟩ a h (ix2 (0 : Fin 1) (0 : Fin 1)) = a ix0 :=
  shapeCast_apply a h _ _ (by
    rw [Shape.rowMajor_val_two]
    show (Shape.rowMajorPi _ _).val = 0 * 1 + 0
    rw [Shape.rowMajorPi_zero])

/-- The layer on the recast arguments, given its leading unit axis back, is the layer on the arguments. -/
theorem matrices_eq_layer (x : FVec Ideal ⟨3, ![1, 10000, 128]⟩ .f32) (adj : FVec Ideal ⟨3, ![1, 10000, 10000]⟩ .f32)
    (w : FVec Ideal ⟨2, ![128, 128]⟩ .f32) (b : FVec Ideal ⟨1, ![128]⟩ .f32) (a : FVec Ideal ⟨0, ![]⟩ .f32)
    (hx : (⟨3, ![1, 10000, 128]⟩ : Shape).ShapeCasts ⟨2, ![10000, 128]⟩)
    (hadj : (⟨3, ![1, 10000, 10000]⟩ : Shape).ShapeCasts ⟨2, ![10000, 10000]⟩)
    (hb : (⟨1, ![128]⟩ : Shape).ShapeCasts ⟨2, ![1, 128]⟩) (ha : (⟨0, ![]⟩ : Shape).ShapeCasts ⟨2, ![1, 1]⟩)
    (hout : (⟨2, ![10000, 128]⟩ : Shape).ShapeCasts ⟨3, ![1, 10000, 128]⟩) :
    shapeCast ⟨3, ![1, 10000, 128]⟩
        (rowsLayer (A := 10000) (shapeCast ⟨2, ![10000, 10000]⟩ adj hadj)
          (features (shapeCast ⟨2, ![10000, 128]⟩ x hx) w) (shapeCast ⟨2, ![1, 128]⟩ b hb) (shapeCast ⟨2, ![1, 1]⟩ a ha)) hout
      = layer x adj w b a := by
  funext i
  obtain ⟨u, r, f, rfl⟩ : ∃ (u : Fin 1) (r : Fin 10000) (f : Fin 128), i = ix3 u r f := ⟨i 0, i 1, i 2, eq_ix3 i⟩
  obtain rfl : u = 0 := Subsingleton.elim _ _
  rw [shapeCast_ab_1ab_apply, rowsLayer_apply]
  have hA : ∀ k : Fin 10000, shapeCast ⟨2, ![10000, 10000]⟩ adj hadj (ix2 r k) = adj (ix3 (0 : Fin 1) r k) :=
    fun k => shapeCast_1ab_ab_apply adj hadj r k
  have hH : ∀ k : Fin 10000, features (shapeCast ⟨2, ![10000, 128]⟩ x hx) w (ix2 k f)
      = ∑ d : Fin 128, x (ix3 (0 : Fin 1) k d) * w (ix2 f d) := fun k => by
    show featureAt _ w k f = _
    unfold featureAt
    exact Finset.sum_congr rfl fun d _ => by rw [shapeCast_1ab_ab_apply]
  unfold entryAt
  rw [scalar_cast a ha, row_cast b hb f, Finset.sum_congr rfl fun k _ => by rw [hA k, hH k]]
  rfl

end Cert.Gcn

end
-- ==== Proof.lean ====
/-
  A graph-convolution layer with a PReLU activation: a fused kernel against its plain reference, on the extended reals.

      out(r, f) = max(z, 0) + a · min(z, 0),    z = Σ_k adj(r, k) · h(k, f) + bias(f),    h(k, f) = Σ_d x(k, d) · w(f, d).

  The kernel runs a grid of 26 points over a 10000-node graph. The first point forms the whole feature transform
  h = x · wᵀ once and keeps it in a scratch buffer; each of the 25 later points multiplies one tile of 400 adjacency rows
  into it, adds the bias and applies the activation, producing 400 rows of the result. The reference forms h by one
  contraction, multiplies the whole adjacency matrix into it, adds the bias and applies the same activation.

  Both sides form h FIRST and the adjacency product SECOND, and multiply in the same order, so as exact extended reals they
  are one function term by term: each matrix product reads as the plain sum over the contracted index, a recast of an
  array keeps every entry, and an output entry uses one adjacency row only, so a tile of the whole result is the result
  of the tile. No distributive law is used, hence no finiteness of the inputs: the precondition is never opened.

  The argument, module by module: the specification (GcnSpec); the two values the body stores are the specification's
  feature transform and its layer on 400 rows (GcnTile); where each block sits in its array (GcnBlocks); the scratch holds
  the feature transform after every point, and a later point's tile is the stored value on it (GcnPieces); the 25 tiles
  written back are the tiles of one matrix and cover it (GcnArray); the recasts around the grid, and the run with its
  result named (GcnKernelRun); the reference's result is the layer (GcnReference); the kernel's arrangement is the layer
  (GcnBridge). The word-level kernel's frame, the idealized kernel's frame and the reference's run are the generated ones;
  the idealization rewrote nothing.
-/
import proofs.«163046_g12309376271097_cont_fleet_1246_12_alg».proof.Defs
import proofs.«163046_g12309376271097_cont_fleet_1246_12_alg».proof.Proof.Gen.Kernel
import proofs.«163046_g12309376271097_cont_fleet_1246_12_alg».proof.Proof.Gen.Kernel.Skeleton
import proofs.«163046_g12309376271097_cont_fleet_1246_12_alg».proof.Proof.Gen.Kernel.Launch
import proofs.«163046_g12309376271097_cont_fleet_1246_12_alg».proof.Proof.Gen.Kernel.Points
import proofs.«163046_g12309376271097_cont_fleet_1246_12_alg».proof.Proof.Gen.Kernel.Frame
import proofs.«163046_g12309376271097_cont_fleet_1246_12_alg».proof.Proof.Gen.KernelIdeal
import proofs.«163046_g12309376271097_cont_fleet_1246_12_alg».proof.Proof.Gen.KernelIdeal.Skeleton
import proofs.«163046_g12309376271097_cont_fleet_1246_12_alg».proof.Proof.Gen.KernelIdeal.Launch
import proofs.«163046_g12309376271097_cont_fleet_1246_12_alg».proof.Proof.Gen.KernelIdeal.Points
import proofs.«163046_g12309376271097_cont_fleet_1246_12_alg».proof.Proof.Gen.KernelIdeal.Frame
import proofs.«163046_g12309376271097_cont_fleet_1246_12_alg».proof.Proof.Gen.ReferenceIdeal
import proofs.«163046_g12309376271097_cont_fleet_1246_12_alg».proof.Proof.Gen.ReferenceIdeal.Run
import proofs.«163046_g12309376271097_cont_fleet_1246_12_alg».proof.Proof.Gen.ReferenceIdeal.Read
import proofs.«163046_g12309376271097_cont_fleet_1246_12_alg».proof.Proof.Gen.Pre_finite_inputs
import proofs.«163046_g12309376271097_cont_fleet_1246_12_alg».proof.Proof.GcnKernelRun
import proofs.«163046_g12309376271097_cont_fleet_1246_12_alg».proof.Proof.GcnReference
import proofs.«163046_g12309376271097_cont_fleet_1246_12_alg».proof.Proof.GcnBridge
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read at the exact values. -/
theorem frame_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel at the exact values rewrote no operation. -/
theorem preserves : Cert.preserves_Kernel_KernelIdeal := trivial

/-- From memories that agree on the five arguments both programs end with the same result: the kernel at its arrangement
    of the layer, the reference at the layer, and the two are one function of the arguments. -/
theorem algebraic : Cert.algebraic_KernelIdeal_ReferenceIdeal := by
  intro m ρ m' ρ' _ hagree
  refine ⟨fun c => Cert.Gcn.kernelResult m c, Cert.Gcn.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.Gcn.reference_eq, (hagree c).1, (hagree c).2.1, (hagree c).2.2.1,
    (hagree c).2.2.2.1, (hagree c).2.2.2.2]
  exact (Cert.Gcn.matrices_eq_layer _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
